-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x20000 : Shape := ⟨2, ![4096, 20000]⟩
abbrev S20000x5000 : Shape := ⟨2, ![20000, 5000]⟩
abbrev S_ : Shape := ⟨0, ![]⟩

class Facts : Prop where
  bcast_S_S4096x20000 : S_.BroadcastsInDim S4096x20000 (![] : Fin 0 → Fin S4096x20000.rank)
  reducesTo_S4096x20000_S_d0_1 : S4096x20000.ReducesTo [0, 1] S_
  h_S_ : 0 < S_.numel
  bcast_S_S20000x5000 : S_.BroadcastsInDim S20000x5000 (![] : Fin 0 → Fin S20000x5000.rank)
  reducesTo_S20000x5000_S_d0_1 : S20000x5000.ReducesTo [0, 1] S_

variable [Facts]

def fn {F : FTy → Type} [FloatOps F] (main_arg0 : FVec F S4096x20000 .f32) (main_arg1 : FVec F S20000x5000 .f32) (main_arg2 : FVec F S20000x5000 .f32) : IVec S_ 1 :=
  let main_v0 : FVec F S4096x20000 .f32 := Host.absf main_arg0
  let main_cst : FVec F S_ .f32 := constant S_ .f32 0x7F800000#32
  let main_v1 : FVec F S4096x20000 .f32 := broadcastInDim S4096x20000 ![] bcast_S_S4096x20000 main_cst
  let main_v2 : IVec S4096x20000 1 := cmpf .olt main_v0 main_v1
  let main_c : IVec S_ 1 := constantI S_ 1 1#1
  let main_v3 : IVec S_ 1 := (fun x v => Host.reduce IntOp.andi x v reducesTo_S4096x20000_S_d0_1 h_S_) main_v2 main_c
  let main_v4 : FVec F S20000x5000 .f32 := Host.absf main_arg1
  let main_cst_0 : FVec F S_ .f32 := constant S_ .f32 0x7F800000#32
  let main_v5 : FVec F S20000x5000 .f32 := broadcastInDim S20000x5000 ![] bcast_S_S20000x5000 main_cst_0
  let main_v6 : IVec S20000x5000 1 := cmpf .olt main_v4 main_v5
  let main_c_1 : IVec S_ 1 := constantI S_ 1 1#1
  let main_v7 : IVec S_ 1 := (fun x v => Host.reduce IntOp.andi x v reducesTo_S20000x5000_S_d0_1 h_S_) main_v6 main_c_1
  let main_v8 : IVec S_ 1 := andi main_v3 main_v7
  let main_v9 : FVec F S20000x5000 .f32 := Host.absf main_arg2
  let main_cst_2 : FVec F S_ .f32 := constant S_ .f32 0x7F800000#32
  let main_v10 : FVec F S20000x5000 .f32 := broadcastInDim S20000x5000 ![] bcast_S_S20000x5000 main_cst_2
  let main_v11 : IVec S20000x5000 1 := cmpf .olt main_v9 main_v10
  let main_c_3 : IVec S_ 1 := constantI S_ 1 1#1
  let main_v12 : IVec S_ 1 := (fun x v => Host.reduce IntOp.andi x v reducesTo_S20000x5000_S_d0_1 h_S_) main_v11 main_c_3
  let main_v13 : IVec S_ 1 := andi main_v8 main_v12
  main_v13
-- ==== Kernel.lean ====
abbrev S4096x20000 : Shape := ⟨2, ![4096, 20000]⟩
abbrev S20000x5000 : Shape := ⟨2, ![20000, 5000]⟩
abbrev S_ : Shape := ⟨0, ![]⟩
abbrev S20480x5120 : Shape := ⟨2, ![20480, 5120]⟩
abbrev S4096x20480 : Shape := ⟨2, ![4096, 20480]⟩
abbrev S4096x5120 : Shape := ⟨2, ![4096, 5120]⟩
abbrev S1024x1024 : Shape := ⟨2, ![1024, 1024]⟩
abbrev S4096x5000 : Shape := ⟨2, ![4096, 5000]⟩

abbrev nBuf : Space → Nat
  | .hbm => 14
  | .vmem => 7
  | .smem => 0
  | _ => 0

abbrev bufTy : (tb : Table) → Fin (tcTables nBuf tb) → BufTy
  | .hbm, ⟨0, _⟩ => ⟨S4096x20000, .f32⟩
  | .hbm, ⟨1, _⟩ => ⟨S20000x5000, .f32⟩
  | .hbm, ⟨2, _⟩ => ⟨S20000x5000, .f32⟩
  | .hbm, ⟨3, _⟩ => ⟨S20000x5000, .f32⟩
  | .hbm, ⟨4, _⟩ => ⟨S20000x5000, .bf16⟩
  | .hbm, ⟨5, _⟩ => ⟨S_, .i32⟩
  | .hbm, ⟨6, _⟩ => ⟨S_, .bf16⟩
  | .hbm, ⟨7, _⟩ => ⟨S20480x5120, .bf16⟩
  | .hbm, ⟨8, _⟩ => ⟨S4096x20000, .bf16⟩
  | .hbm, ⟨9, _⟩ => ⟨S_, .i32⟩
  | .hbm, ⟨10, _⟩ => ⟨S_, .bf16⟩
  | .hbm, ⟨11, _⟩ => ⟨S4096x20480, .bf16⟩
  | .hbm, ⟨12, _⟩ => ⟨S4096x5120, .f32⟩
  | .hbm, ⟨13, _⟩ => ⟨S4096x5000, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 20], ![false, false, false]⟩

def k0_cond2 (i : grid0.Coords) : BitVec 1 :=
  let arg2 : BitVec 32 := BitVec.ofNat 32 (i 2).val
  let c19_i32 : BitVec 32 := 19#32
  let v13 : BitVec 1 := Scalar.cmpi .eq arg2 c19_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  pads_S20000x5000_S20480x5120_04800_01200 : S20000x5000.Pads (![0, 0] : Fin 2 → Nat) ![480, 120] ![0, 0] S20480x5120
  h_S_ : 0 < S_.numel
  pads_S4096x20000_S4096x20480_000_04800 : S4096x20000.Pads (![0, 0] : Fin 2 → Nat) ![0, 480] ![0, 0] S4096x20480
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S4096x5120_S4096x5000_0_0 : S4096x5120.Slices ![0, 0] S4096x5000
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x20480.size a
  hwx0_0 : ∀ i : grid0.Coords, EltTy.bits .bf16 = 32 ∨ (Rect.block (s := S4096x20480) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S20480x5120.size a
  hwx0_1 : ∀ i : grid0.Coords, EltTy.bits .bf16 = 32 ∨ (Rect.block (s := S20480x5120) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x5120.size a
  hwx0_2 : ∀ i : grid0.Coords, EltTy.bits .f32 = 32 ∨ (Rect.block (s := S4096x5120) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x20000 : Shape := ⟨2, ![4096, 20000]⟩
abbrev S20000x5000 : Shape := ⟨2, ![20000, 5000]⟩
abbrev S4096x5000 : Shape := ⟨2, ![4096, 5000]⟩

abbrev nBuf : Space → Nat
  | .hbm => 5
  | .vmem => 0
  | .smem => 0
  | _ => 0

abbrev bufTy : (tb : Table) → Fin (tcTables nBuf tb) → BufTy
  | .hbm, ⟨0, _⟩ => ⟨S4096x20000, .f32⟩
  | .hbm, ⟨1, _⟩ => ⟨S20000x5000, .f32⟩
  | .hbm, ⟨2, _⟩ => ⟨S20000x5000, .f32⟩
  | .hbm, ⟨3, _⟩ => ⟨S20000x5000, .f32⟩
  | .hbm, ⟨4, _⟩ => ⟨S4096x5000, .f32⟩
  | _, _ => ⟨S4096x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x20000_S20000x5000_S4096x5000_1_0_0_1_n_n_wf : DotDims.WF S4096x20000 S20000x5000 S4096x5000 [1] [0] [0] [1] [] []

variable [Facts₀]

def dot_S4096x20000_S20000x5000_S4096x5000_1_0_0_1_n_n : DotDims S4096x20000 S20000x5000 S4096x5000 where
  lhsContracting := [1]
  rhsContracting := [0]
  lhsNonContracting := [0]
  rhsNonContracting := [1]
  lhsBatch := []
  rhsBatch := []
  wf := dot_S4096x20000_S20000x5000_S4096x5000_1_0_0_1_n_n_wf

class Facts : Prop extends Facts₀ where

variable [Facts]
-- ==== Proof.CaseValues.lean ====
/-
  What one grid point leaves in the accumulator and in the output block, as values.

  The kernel body at a grid point (i, j, k) holds an accumulator block acc (the scratch it carries from point to point)
  and two input blocks: a, a [1024, 1024] block of the padded left factor, and b, a [1024, 1024] block of the padded
  right factor. Writing  step acc a b = acc + a · b  (the body's one arithmetic value: the matrix product of the two
  blocks, accumulated into zero, added to the accumulator), the three control cases leave:

    first block of a sweep (k = 0):        accumulator = step 0 a b        (the accumulator is reset to zero first);
    a middle block (0 < k < 19):           accumulator = step acc a b;
    last block of a sweep (k = 19):        accumulator = step acc a b, and the output block is a copy of it.

  Each is the value of the covering store the run found, with its loads read back from the whole buffers they read.
-/
import proofs.«112190_j71700184039905_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CaseValues

open Cert.KernelIdeal Cert.KernelIdeal.Gen

variable {F : FTy → Type} [FloatOps F]

theorem hz : (![0, 0] : Fin 2 → Nat) = fun _ => 0 := funext fun a => by fin_cases a <;> rfl

/-- First block of a sweep: the accumulator is reset, then the blocks' product is added to it. -/
theorem sout_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle block: the blocks' product is added to the accumulator the point before left. -/
theorem sout_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 : Vec F S1024x1024 .bf16) (xs0 : Vec F S1024x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero hz]
  simp only [View.readAt_eq_ld, h3.read_unread, h4.read_unread, h6.read_unread, View.ld_unit_zero (S := S1024x1024) hz]

/-- Last block of a sweep: the accumulator as in a middle block, -/
theorem sout_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz]

/-- and the output block is the accumulator read back. -/
theorem out_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end Cert.KernelIdeal.CaseValues

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.Step.lean ====
/-
  The body's arithmetic at an index, on the extended reals.

  At the ideal values the block the reset stores is zero everywhere, and one accumulation step leaves at row r, lane l
  of the accumulator block

      acc (r, l) + ∑ d < 1024, a (r, d) · b (d, l),

  the inner product of row r of the left block with column l of the right block added to what was there: the matrix
  product accumulates into zero, so it is the plain inner product, and the change of float format of its operands is
  the identity.
-/
import proofs.«112190_j71700184039905_2_alg».proof.Proof.Gen.KernelIdeal.Skeleton
import proofs.«112190_j71700184039905_2_alg».proof.Proof.LibInnerProducts
import Idealize.ShloMosaic.Lib.Pipeline.Value
import Idealize.ShloMosaic.Lib.ValueIdx
import Idealize.ShloMosaic.PureOps.Ideal.Laws

noncomputable section

open scoped BigOperators

namespace Cert.KernelIdeal.Step

open Idealize.ShloMosaic Idealize.ShloMosaic.ValueIdx Cert.KernelIdeal Cert.KernelIdeal.Gen

/-- The block the reset stores is zero at every index. -/
theorem zero_apply (j : S1024x1024.Idx) : k0_pay1 (F := Ideal) j = 0 := by
  unfold k0_pay1
  rw [shapeCast_self]
  exact Ideal.ofBits_zero_f32

/-- One accumulation step at (r, l): what was there plus the inner product of row r with column l. -/
theorem step_apply (acc : Vec Ideal S1024x1024 .f32) (x0 x1 : Vec Ideal S1024x1024 .bf16) (r l : Fin 1024) :
    k0_pay2 (F := Ideal) acc x0 x1 (ix2 r l) = acc (ix2 r l) + ∑ d : Fin 1024, x0 (ix2 r d) * x1 (ix2 d l) := by
  unfold k0_pay2
  simp only [shapeCast_self]
  refine (addf_apply _ _ _).trans ?_
  exact congrArg (acc (ix2 r l) + ·)
    (InnerProducts.matmul_zero_apply dot_S1024x1024_S1024x1024_S1024x1024_1_0_0_1_n_n rfl none x0 x1 r l)

end Cert.KernelIdeal.Step

end
-- ==== Proof.LibBlockedSum.lean ====
/-
  A sum over a long axis, taken block by block.

  A sum over the first a·b naturals can be taken in a consecutive blocks of b terms: the term at position k sits in
  block k / b at place k % b, that is at b·s + d with s the block and d the place. Only commutativity and
  associativity of the addition are used, so the statement holds in any commutative monoid — in particular on the
  extended reals, where no finiteness is needed.
-/
import Mathlib.Algebra.BigOperators.Fin
import Mathlib.Logic.Equiv.Fin.Basic

open scoped BigOperators

namespace Cert.LibBlockedSum

/-- The sum over s < a of the sums over d < b of f (b·s + d) is the sum of f over the first a·b naturals. -/
theorem sum_range_blocks {β : Type*} [AddCommMonoid β] (a b : ℕ) (f : ℕ → β) :
    ∑ s ∈ Finset.range a, ∑ d : Fin b, f (b * s + d.val) = ∑ k : Fin (a * b), f k.val := by
  rw [← Equiv.sum_comp finProdFinEquiv (fun k : Fin (a * b) => f k.val), Fintype.sum_prod_type, Finset.sum_range]
  refine Finset.sum_congr rfl fun s _ => Finset.sum_congr rfl fun d _ => ?_
  refine congrArg f ?_
  show b * s.val + d.val = d.val + b * s.val
  exact Nat.add_comm _ _

end Cert.LibBlockedSum
-- ==== Proof.LibNatCoords.lean ====
/-
  Matrices read at natural coordinates, and sums whose tail vanishes.

  A matrix with R rows and C columns is extended to all pairs of naturals by zero outside its extents, so that
  arithmetic on positions (a block offset plus a position inside the block, a padded axis) is plain arithmetic on naturals
  with no bound to carry. And a finite sum over the first N naturals whose terms vanish from position n ≤ N on is the
  sum over the first n: the dropped terms are zeros. Both hold for entries in any type with a zero, respectively any
  commutative monoid — in particular on the extended reals.
-/
import Mathlib.Algebra.BigOperators.Fin
import Idealize.ShloMosaic.Lib.ValueIdx

noncomputable section

open scoped BigOperators

namespace Cert.LibNatCoords

open Idealize.ShloMosaic Idealize.ShloMosaic.ValueIdx

/-- An [R, C] matrix read at natural coordinates: its entry inside its extents, zero outside. -/
def nat2 {α : Type} [Zero α] {R C : ℕ} (X : (⟨2, ![R, C]⟩ : Shape).Idx → α) (r e : ℕ) : α :=
  if h : r < R ∧ e < C then X (ix2 ⟨r, h.1⟩ ⟨e, h.2⟩) else 0

/-- At the coordinates of an index it is the matrix. -/
theorem nat2_apply {α : Type} [Zero α] {R C : ℕ} (X : (⟨2, ![R, C]⟩ : Shape).Idx → α) (p : Fin R) (q : Fin C) :
    nat2 X p.val q.val = X (ix2 p q) := by
  unfold nat2
  rw [dif_pos ⟨p.isLt, q.isLt⟩]

/-- The same with the coordinates given as naturals with their bounds. -/
theorem nat2_of_lt {α : Type} [Zero α] {R C : ℕ} (X : (⟨2, ![R, C]⟩ : Shape).Idx → α) (r e : ℕ) (hr : r < R)
    (he : e < C) : nat2 X r e = X (ix2 ⟨r, hr⟩ ⟨e, he⟩) := by
  unfold nat2
  rw [dif_pos ⟨hr, he⟩]

/-- Outside the extents it is zero. -/
theorem nat2_of_not {α : Type} [Zero α] {R C : ℕ} (X : (⟨2, ![R, C]⟩ : Shape).Idx → α) (r e : ℕ)
    (h : ¬(r < R ∧ e < C)) : nat2 X r e = 0 := by
  unfold nat2
  rw [dif_neg h]

/-- Terms that vanish from position n on can be dropped from a sum over the first N ≥ n positions. -/
theorem sum_drop_zero_tail {β : Type*} [AddCommMonoid β] {n N : ℕ} (hnN : n ≤ N) (f : ℕ → β)
    (h : ∀ e, n ≤ e → f e = 0) : ∑ e : Fin N, f e.val = ∑ e : Fin n, f e.val := by
  rw [← Finset.sum_range, ← Finset.sum_range]
  exact (Finset.sum_subset (Finset.range_subset_range.2 hnN) fun x _ hx =>
    h x (Nat.le_of_not_lt fun hlt => hx (Finset.mem_range.2 hlt))).symm

end Cert.LibNatCoords

end
-- ==== Proof.PaddedDot.lean ====
/-
  An inner product along a zero-padded axis, accumulated block by block.

  Arrays are read at natural coordinates (zero outside their extents), so that the block arithmetic
  "position 1024·s + d" is plain arithmetic on naturals. For two such arrays a, b the partial inner product of row R of a
  with column L of b over the first n blocks of 1024 positions is

      partialDot a b R L n = ∑ s < n, ∑ d < 1024, a R (1024·s + d) · b (1024·s + d) L.

  It grows by one block's inner product per step; after 20 blocks it is the inner product over all 20480 positions; and
  positions where a vanishes contribute nothing (0 · y = 0 on the extended reals, for every y, infinite or not), so a
  row that is zero from position 20000 on has the same inner product over 20480 positions as over 20000. Only
  commutativity and associativity of the addition and 0 · y = 0 are used: no finiteness.
-/
import Mathlib.Data.EReal.Basic
import Idealize.ShloMosaic.Lib.ValueIdx
import proofs.«112190_j71700184039905_2_alg».proof.Proof.LibBlockedSum
import proofs.«112190_j71700184039905_2_alg».proof.Proof.LibNatCoords

noncomputable section

open scoped BigOperators

namespace Cert.PaddedDot

open Idealize.ShloMosaic Idealize.ShloMosaic.ValueIdx

export Cert.LibNatCoords (nat2 nat2_apply nat2_of_lt nat2_of_not sum_drop_zero_tail)

/-- The inner product of row R of a with column L of b over the first n blocks of 1024 positions. -/
def partialDot (a b : ℕ → ℕ → EReal) (R L n : ℕ) : EReal :=
  ∑ s ∈ Finset.range n, ∑ d : Fin 1024, a R (1024 * s + d.val) * b (1024 * s + d.val) L

/-- One more block adds that block's inner product. -/
theorem partialDot_succ (a b : ℕ → ℕ → EReal) (R L n : ℕ) :
    partialDot a b R L (n + 1)
      = partialDot a b R L n + ∑ d : Fin 1024, a R (1024 * n + d.val) * b (1024 * n + d.val) L :=
  Finset.sum_range_succ _ _

/-- The first block alone. -/
theorem partialDot_one (a b : ℕ → ℕ → EReal) (R L : ℕ) :
    partialDot a b R L 1 = ∑ d : Fin 1024, a R (1024 * 0 + d.val) * b (1024 * 0 + d.val) L :=
  Finset.sum_range_one _

/-- Twenty blocks of 1024 positions are all 20480 positions. -/
theorem partialDot_twenty (a b : ℕ → ℕ → EReal) (R L : ℕ) :
    partialDot a b R L 20 = ∑ e : Fin 20480, a R e.val * b e.val L :=
  Cert.LibBlockedSum.sum_range_blocks 20 1024 fun e => a R e * b e L

/-! ## The specification -/

/-- The masked product x · (w ∘ m): entry (p, q) is the sum over e < 20000 of x (p, e) · (w (e, q) · m (e, q)). -/
def maskedProduct (x : (⟨2, ![4096, 20000]⟩ : Shape).Idx → EReal) (w m : (⟨2, ![20000, 5000]⟩ : Shape).Idx → EReal) :
    (⟨2, ![4096, 5000]⟩ : Shape).Idx → EReal :=
  fun i => ∑ e : Fin 20000, x (ix2 (i 0) e) * (w (ix2 e (i 1)) * m (ix2 e (i 1)))

end Cert.PaddedDot

end
-- ==== Proof.Blocks.lean ====
/-
  Where the blocks sit in the padded arrays.

  The grid is 4 × 5 × 20 points, numbered row-major: point t is (i, j, k) with i = t / 100, j = t / 20 mod 5, k = t mod 20.
  At point t the left window holds block (i, k) of the padded left factor A, a [4096, 20480] array; the right window holds
  block (k, j) of the padded right factor B, a [20480, 5120] array; the output window is block (i, j) of the [4096, 5120]
  result. A block's entry (r, d) is the array's entry (1024 · block row + r, 1024 · block column + d).
-/
import proofs.«112190_j71700184039905_2_alg».proof.Proof.Gen.KernelIdeal.Frame
import proofs.«112190_j71700184039905_2_alg».proof.Proof.PaddedDot
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen Cert.PaddedDot

variable (m : (ℓ : Loc nD τ sig) → Buf (Elt Ideal) ℓ)

/-- The block coordinates of the three windows at point t, from the point's number. -/
theorem idx_facts : ∀ t : Fin cfg0.N,
    win0_0.index t 0 = t.val / 100 ∧ win0_0.index t 1 = t.val % 20
    ∧ win0_1.index t 0 = t.val % 20 ∧ win0_1.index t 1 = t.val / 20 % 5
    ∧ win0_2.index t 0 = t.val / 100 ∧ win0_2.index t 1 = t.val / 20 % 5 :=
  (by decide +kernel : ∀ t : Fin grid0.N,
    win0_0.index t 0 = t.val / 100 ∧ win0_0.index t 1 = t.val % 20
    ∧ win0_1.index t 0 = t.val % 20 ∧ win0_1.index t 1 = t.val / 20 % 5
    ∧ win0_2.index t 0 = t.val / 100 ∧ win0_2.index t 1 = t.val / 20 % 5)

/-- The padded left factor as the region finds it, read at natural coordinates. -/
def A (c : Dev nD) : ℕ → ℕ → EReal := nat2 (V m c main_v4 : S4096x20480.Idx → EReal)
/-- The padded right factor as the region finds it, read at natural coordinates. -/
def B (c : Dev nD) : ℕ → ℕ → EReal := nat2 (V m c main_v2 : S20480x5120.Idx → EReal)

/-- The left window's block at point t, entry (r, d): A at row 1024·i + r, position 1024·k + d. -/
theorem left_block (c : Dev nD) (t : Fin cfg0.N) (r d : Fin 1024) :
    (iblk m c 0 t : Vec Ideal S1024x1024 .bf16) (ix2 r d)
      = A m c (1024 * (t.val / 100) + r.val) (1024 * (t.val % 20) + d.val) := by
  have hN : t.val < 400 := lt_of_lt_of_eq t.isLt (show cfg0.N = 400 from N_0)
  obtain ⟨f0, f1, -⟩ := idx_facts t
  unfold A
  rw [nat2_of_lt _ _ _ (by omega) (by omega)]
  unfold iblk
  rw [View.read_apply]
  show V m c main_v4 _ = V m c main_v4 _
  refine congrArg _ (funext fun a => Fin.ext ?_)
  match a with
  | ⟨0, _⟩ => show win0_0.index t 0 * 1024 + 1 * r.val = 1024 * (t.val / 100) + r.val; rw [f0]; omega
  | ⟨1, _⟩ => show win0_0.index t 1 * 1024 + 1 * d.val = 1024 * (t.val % 20) + d.val; rw [f1]; omega

/-- The right window's block at point t, entry (d, l): B at position 1024·k + d, column 1024·j + l. -/
theorem right_block (c : Dev nD) (t : Fin cfg0.N) (d l : Fin 1024) :
    (iblk m c 1 t : Vec Ideal S1024x1024 .bf16) (ix2 d l)
      = B m c (1024 * (t.val % 20) + d.val) (1024 * (t.val / 20 % 5) + l.val) := by
  have hN : t.val < 400 := lt_of_lt_of_eq t.isLt (show cfg0.N = 400 from N_0)
  obtain ⟨-, -, f0, f1, -⟩ := idx_facts t
  unfold B
  rw [nat2_of_lt _ _ _ (by omega) (by omega)]
  unfold iblk
  rw [View.read_apply]
  show V m c main_v2 _ = V m c main_v2 _
  refine congrArg _ (funext fun a => Fin.ext ?_)
  match a with
  | ⟨0, _⟩ => show win0_1.index t 0 * 1024 + 1 * d.val = 1024 * (t.val % 20) + d.val; rw [f0]; omega
  | ⟨1, _⟩ => show win0_1.index t 1 * 1024 + 1 * l.val = 1024 * (t.val / 20 % 5) + l.val; rw [f1]; omega

end Cert.KernelIdeal.Blocks

end
-- ==== Proof.Accumulator.lean ====
/-
  The accumulator over a sweep is the partial inner product.

  Points 20·b … 20·b + 19 are one sweep over the contracted axis for the output block (i, j), b = 5·i + j. After the
  point with k = t mod 20 the accumulator holds, at (r, l), the inner product of row 1024·i + r of A with column
  1024·j + l of B over the first k + 1 blocks of 1024 positions: the first point of a sweep starts it from zero
  (0 + first block), every later point adds its block to what the point before left. By induction on the point.
  At the last point of a sweep (k = 19) the output block is a copy: all twenty blocks, the inner product over all 20480
  positions.
-/
import proofs.«112190_j71700184039905_2_alg».proof.Proof.CaseValues
import proofs.«112190_j71700184039905_2_alg».proof.Proof.Step
import proofs.«112190_j71700184039905_2_alg».proof.Proof.Blocks

noncomputable section

open scoped BigOperators

open Idealize.ShloMosaic Idealize.ShloMosaic.TcCoe Idealize.SL.Sem Idealize.ShloMosaic.ValueIdx

namespace Cert.KernelIdeal.Accumulator

open Cert.KernelIdeal Cert.KernelIdeal.Gen Cert.PaddedDot Cert.KernelIdeal.Blocks

variable (m : (ℓ : Loc nD τ sig) → Buf (Elt Ideal) ℓ)

/-- One step at point t, at (r, l): what was there plus the inner product of the point's block of row 1024·i + r of A
    with its block of column 1024·j + l of B. -/
theorem step_at (c : Dev nD) (t : Fin cfg0.N) (acc : Vec Ideal S1024x1024 .f32) (r l : Fin 1024) :
    k0_pay2 (F := Ideal) acc (iblk m c 0 t) (iblk m c 1 t) (ix2 r l)
      = acc (ix2 r l) + ∑ d : Fin 1024, A m c (1024 * (t.val / 100) + r.val) (1024 * (t.val % 20) + d.val)
          * B m c (1024 * (t.val % 20) + d.val) (1024 * (t.val / 20 % 5) + l.val) := by
  refine (Step.step_apply acc (iblk m c 0 t) (iblk m c 1 t) r l).trans ?_
  refine congrArg (acc (ix2 r l) + ·) (Finset.sum_congr rfl fun d _ => ?_)
  exact congrArg₂ (· * ·) (left_block m c t r d) (right_block m c t d l)

/-- After point n the accumulator holds the inner product over the sweep's first n mod 20 + 1 blocks. -/
theorem acc_eq (c : Dev nD) : ∀ (n : ℕ) (h : n < cfg0.N) (r l : Fin 1024),
    (outsAt0 m c n h).2 (ix2 r l)
      = partialDot (A m c) (B m c) (1024 * (n / 100) + r.val) (1024 * (n / 20 % 5) + l.val) (n % 20 + 1)
  | 0, h, r, l => by
    rw [outsAt0_A m c ⟨0, h⟩ rfl (show ¬(0 : ℕ) % 20 = 19 by decide)]
    dsimp only
    rw [CaseValues.sout_A, step_at m c ⟨0, h⟩, Step.zero_apply, zero_add]
    exact (partialDot_one _ _ _ _).symm
  | n + 1, h, r, l => by
    have hN : n + 1 < 400 := lt_of_lt_of_eq h (show cfg0.N = 400 from N_0)
    by_cases h0 : (n + 1) % 20 = 0
    · have h1 : ¬(n + 1) % 20 = 19 := by omega
      rw [outsAt0_A m c ⟨n + 1, h⟩ h0 h1]
      dsimp only
      rw [CaseValues.sout_A, step_at m c ⟨n + 1, h⟩, Step.zero_apply, zero_add]
      dsimp only
      rw [h0]
      exact (partialDot_one _ _ _ _).symm
    · have e1 : (n + 1) / 100 = n / 100 := by omega
      have e2 : (n + 1) / 20 % 5 = n / 20 % 5 := by omega
      have e3 : (n + 1) % 20 = n % 20 + 1 := by omega
      by_cases h1 : (n + 1) % 20 = 19
      · rw [outsAt0_C m c ⟨n + 1, h⟩ h0 h1]
        dsimp only
        rw [CaseValues.sout_C, step_at m c ⟨n + 1, h⟩]
        dsimp only
        show (outsAt0 m c n (Nat.lt_of_succ_lt h)).2 (ix2 r l) + _ = _
        rw [acc_eq c n (Nat.lt_of_succ_lt h) r l, e1, e2, e3]
        exact (partialDot_succ _ _ _ _ _).symm
      · rw [outsAt0_B m c ⟨n + 1, h⟩ h0 h1]
        dsimp only
        rw [CaseValues.sout_B, step_at m c ⟨n + 1, h⟩]
        dsimp only
        show (outsAt0 m c n (Nat.lt_of_succ_lt h)).2 (ix2 r l) + _ = _
        rw [acc_eq c n (Nat.lt_of_succ_lt h) r l, e1, e2, e3]
        exact (partialDot_succ _ _ _ _ _).symm

/-- At the last point of a sweep the output block holds, at (r, l), the inner product of row 1024·i + r of A with
    column 1024·j + l of B over all 20480 positions. -/
theorem out_eq (c : Dev nD) (t : Fin cfg0.N) (hf : t.val % 20 = 19) (r l : Fin 1024) :
    (outsAt0 m c t.val t.isLt).1 (ix2 r l)
      = ∑ e : Fin 20480, A m c (1024 * (t.val / 100) + r.val) e.val * B m c e.val (1024 * (t.val / 20 % 5) + l.val) := by
  have hN : t.val < 400 := lt_of_lt_of_eq t.isLt (show cfg0.N = 400 from N_0)
  have h0 : ¬t.val % 20 = 0 := by omega
  rw [outsAt0_C m c t h0 hf]
  dsimp only
  rw [CaseValues.out_C, step_at m c t, acc_eq m c (t.val - 1) _ r l]
  have e1 : (t.val - 1) / 100 = t.val / 100 := by omega
  have e2 : (t.val - 1) / 20 % 5 = t.val / 20 % 5 := by omega
  have e3 : (t.val - 1) % 20 + 1 = 19 := by omega
  rw [e1, e2, e3, hf, ← partialDot_succ]
  exact partialDot_twenty _ _ _ _

end Cert.KernelIdeal.Accumulator

end
-- ==== Proof.KernelArray.lean ====
/-
  The region's result array.

  Only the last point of each sweep writes its output block back: block (i, j) of the [4096, 5120] result, holding at
  (r, l) the inner product of row 1024·i + r of A with column 1024·j + l of B over all 20480 positions. So every
  flushed block is the restriction of one function of the whole array,

      product (p, q) = ∑ e < 20480, A p e · B e q,

  and the twenty blocks' rectangles cover the array (entry (p, q) lies in block (p / 1024, q / 1024), written back at
  point 100·(p / 1024) + 20·(q / 1024) + 19): the result array ends holding it.
-/
import proofs.«112190_j71700184039905_2_alg».proof.Proof.Accumulator
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.KernelArray

open Cert.KernelIdeal Cert.KernelIdeal.Gen Cert.PaddedDot Cert.KernelIdeal.Blocks

variable (m : (ℓ : Loc nD τ sig) → Buf (Elt Ideal) ℓ)

/-- The product of the padded arrays: entry (p, q) is the inner product of row p of A with column q of B. -/
def product (c : Dev nD) : S4096x5120.Idx → EReal :=
  fun i => ∑ e : Fin 20480, A m c (i 0).val e.val * B m c e.val (i 1).val

/-- What a flushing point writes back is its block of the product. -/
theorem flushed_eq (c : Dev nD) (t : Fin cfg0.N) (hf : (cfg0.win 2).flush t = true) :
    (dats m 0 c).flushed 2 t = ((cfg0.win 2).blk t).view.read (Elt Ideal) (product m c) := by
  have hk : t.val % 20 = 19 := (flush0_2 t).mp hf
  obtain ⟨-, -, -, -, f0, f1⟩ := idx_facts t
  show (cfg0.win 2).cut (grid0.coords t) ((dats m 0 c).after 2 t) = _
  rw [after0_2]
  funext y
  rw [View.read_apply]
  refine Eq.trans ?_ (cast_eq _ _).symm
  have key : ∀ (X : Vec Ideal S1024x1024 .f32) (y' : S1024x1024.Idx), X y' = X (ix2 (y' 0) (y' 1)) :=
    fun X y' => congrArg X (eq_ix2 y')
  refine ((key (outsAt0 m c t.val t.isLt).1 y).trans (Accumulator.out_eq m c t hk (y 0) (y 1))).trans ?_
  unfold product
  have c0 : ((((cfg0.win 2).blk t).view.emb y) 0).val = 1024 * (t.val / 100) + (y 0).val := by
    show win0_2.index t 0 * 1024 + 1 * (y 0).val = _
    rw [f0]; omega
  have c1 : ((((cfg0.win 2).blk t).view.emb y) 1).val = 1024 * (t.val / 20 % 5) + (y 1).val := by
    show win0_2.index t 1 * 1024 + 1 * (y 1).val = _
    rw [f1]; omega
  rw [c0, c1]

/-- An index of the array is in point t's block iff each coordinate is in the block's range on its axis. -/
theorem mem_blk (t : Fin cfg0.N) (i : S4096x5120.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v5).slice (win0_2.rect t)).set ↔ _
  rw [View.set_slice_whole, Rect.mem_set_unit]
  exact Iff.rfl

/-- Every entry of the array lies in the block some flushing point writes back. -/
theorem cover (c : Dev nD) (i : S4096x5120.Idx) :
    ∃ t : Fin cfg0.N, (cfg0.win 2).flush t = true ∧ i ∈ ((cfg0.win 2).blk t).view.set := by
  have hi0 : (i 0).val < 4096 := (i 0).isLt
  have hi1 : (i 1).val < 5120 := (i 1).isLt
  have hN : cfg0.N = 400 := N_0
  let t : Fin cfg0.N := ⟨100 * ((i 0).val / 1024) + 20 * ((i 1).val / 1024) + 19, by rw [hN]; omega⟩
  have ht : t.val = 100 * ((i 0).val / 1024) + 20 * ((i 1).val / 1024) + 19 := rfl
  obtain ⟨-, -, -, -, f0, f1⟩ := idx_facts t
  refine ⟨t, (flush0_2 t).mpr (by rw [ht]; omega), ?_⟩
  rw [mem_blk]
  intro a
  match a with
  | ⟨0, _⟩ =>
    show win0_2.index t 0 * 1024 ≤ (i 0).val ∧ (i 0).val < win0_2.index t 0 * 1024 + 1024
    rw [f0, ht]; omega
  | ⟨1, _⟩ =>
    show win0_2.index t 1 * 1024 ≤ (i 1).val ∧ (i 1).val < win0_2.index t 1 * 1024 + 1024
    rw [f1, ht]; omega

/-- The region's result array ends holding the product of the padded arrays. -/
theorem final (c : Dev nD) : (dats m 0 c).arrAt 2 cfg0.N = product m c :=
  (dats m 0 c).arrAt_eq_of_cover 2 (product m c) (flushed_eq m c) (cover c)

end Cert.KernelIdeal.KernelArray

end
-- ==== Proof.HostSides.lean ====
/-
  The arrays the region finds, and the slice after it.

  Before the region the program pads: A is x (its float format changed, which is the identity on the extended reals)
  with 480 zero columns appended, a [4096, 20480] array; B is w ∘ m (format changed likewise) with 480 zero rows and 120
  zero columns appended, a [20480, 5120] array. The padding value is the integer 0 converted to a float: zero. So

      A (p, e) = x (p, e)                 for e < 20000,        A (r, e) = 0   for e ≥ 20000 (any r),
      B (e, q) = w (e, q) · m (e, q)      for e < 20000, q < 5000.

  After the region the program keeps rows 0..4095 and columns 0..4999 of the [4096, 5120] result.
-/
import proofs.«112190_j71700184039905_2_alg».proof.Proof.Blocks
import Idealize.ShloMosaic.Lib.Pipeline.Value
import Idealize.ShloMosaic.Lib.StableHlo.Run
import Idealize.ShloMosaic.Lib.KernelVsHost
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.HostSides

open Cert.KernelIdeal Cert.KernelIdeal.Gen Cert.PaddedDot Cert.KernelIdeal.Blocks

variable (m : (ℓ : Loc nD τ sig) → Buf (Elt Ideal) ℓ)

/-- The left factor as the region finds it: x padded with 480 columns of the converted integer zero. -/
theorem V_left (c : Dev nD) : (V m c main_v4 : S4096x20480.Idx → EReal)
    = pad S4096x20480 ![0, 0] ![0, 480] ![0, 0]
        (truncf .bf16 (m ((c : Thread nD τ).loc main_arg0) : FVec Ideal S4096x20000 .f32) bitsLt_bf16_f32)
        (sitofp (F := Ideal) .bf16 (constantI S_ 32 0#32)) pads_S4096x20000_S4096x20480_000_04800 h_S_ := by
  dsimp only [V, V0]
  simp only [hostOps0, hostOps0_1, hostOps0_2, hostOps0_3, List.flatten_cons, List.flatten_nil, List.append_nil,
    List.cons_append, List.nil_append]
  after_results
  rfl

/-- The right factor as the region finds it: w ∘ m padded with 480 rows and 120 columns of the converted integer zero. -/
theorem V_right (c : Dev nD) : (V m c main_v2 : S20480x5120.Idx → EReal)
    = pad S20480x5120 ![0, 0] ![480, 120] ![0, 0]
        (truncf .bf16 (mulf (m ((c : Thread nD τ).loc main_arg1) : FVec Ideal S20000x5000 .f32)
          (m ((c : Thread nD τ).loc main_arg2))) bitsLt_bf16_f32)
        (sitofp (F := Ideal) .bf16 (constantI S_ 32 0#32)) pads_S20000x5000_S20480x5120_04800_01200 h_S_ := by
  dsimp only [V, V0]
  simp only [hostOps0, hostOps0_1, hostOps0_2, hostOps0_3, List.flatten_cons, List.flatten_nil, List.append_nil,
    List.cons_append, List.nil_append]
  after_results
  rfl

/-- The padding value is zero. -/
theorem pad_value (j : S_.Idx) : sitofp (F := Ideal) .bf16 (constantI S_ 32 0#32) j = 0 :=
  sitofp_zero

/-- Inside x's extents A is x. -/
theorem A_inside (c : Dev nD) (p : Fin 4096) (e : Fin 20000) :
    A m c p.val e.val = (m ((c : Thread nD τ).loc main_arg0) : FVec Ideal S4096x20000 .f32) (ix2 p e) := by
  unfold A
  rw [nat2_of_lt _ _ _ p.isLt (by have := e.isLt; omega), V_left]
  refine (pad_apply_of_inside _ _ _ _ _ _ _ _ (ix2 p e) fun a => ?_).trans rfl
  match a with
  | ⟨0, _⟩ => show p.val = 0 + p.val * (0 + 1); omega
  | ⟨1, _⟩ => show e.val = 0 + e.val * (0 + 1); omega

/-- From position 20000 on A is zero, in every row. -/
theorem A_tail (c : Dev nD) (r e : ℕ) (he : 20000 ≤ e) : A m c r e = 0 := by
  unfold A
  by_cases h : r < 4096 ∧ e < 20480
  · rw [nat2_of_lt _ _ _ h.1 h.2, V_left]
    refine (pad_apply_of_not_inside _ _ _ _ _ _ _ _ (1 : Fin 2) fun hin => ?_).trans (pad_value _)
    have h3 : (e - 0) / (0 + 1) < 20000 := hin.2.2
    omega
  · exact nat2_of_not _ _ _ h

/-- Inside the extents of w and m, B is their entrywise product. -/
theorem B_inside (c : Dev nD) (e : Fin 20000) (q : Fin 5000) :
    B m c e.val q.val = (mulf (m ((c : Thread nD τ).loc main_arg1)) (m ((c : Thread nD τ).loc main_arg2))
      : FVec Ideal S20000x5000 .f32) (ix2 e q) := by
  unfold B
  rw [nat2_of_lt _ _ _ (by have := e.isLt; omega) (by have := q.isLt; omega), V_right]
  refine (pad_apply_of_inside _ _ _ _ _ _ _ _ (ix2 e q) fun a => ?_).trans rfl
  match a with
  | ⟨0, _⟩ => show e.val = 0 + e.val * (0 + 1); omega
  | ⟨1, _⟩ => show q.val = 0 + q.val * (0 + 1); omega

/-- The program's result is the top-left [4096, 5000] corner of whatever the region leaves in its result array. -/
theorem tail_eq (c : Dev nD) (X : S4096x5120.Idx → EReal) (hX : (dats m 0 c).arrAt 2 cfg0.N = X) :
    (Pipeline.afterTail₀ cfgs (dats m) 0 (V0 m) [hostOps1] c main_v6 : S4096x5000.Idx → EReal)
      = extractStridedSlice S4096x5000 ![0, 0] X slices_S4096x5120_S4096x5000_0_0 := by
  unfold Pipeline.afterTail₀
  show StableHlo.after hostOps1 _ (Proc.devRef .tc main_v6) = _
  after_results
  refine congrArg (fun Y : S4096x5120.Idx → EReal => extractStridedSlice S4096x5000 ![0, 0] Y slices_S4096x5120_S4096x5000_0_0) ?_
  exact (Pipeline.withArrays_arr spec0 launch0.win.arr_inj c _ _ 2).trans hX

end Cert.KernelIdeal.HostSides

end
-- ==== Proof.KernelRun.lean ====
/-
  The kernel program computes the masked product.

  The region leaves the product of the padded arrays, ∑ e < 20480, A p e · B e q, and the program keeps its top-left
  [4096, 5000] corner. For p < 4096 and q < 5000: the terms from position 20000 on vanish because A is zero there
  (0 · y = 0 for every extended real y), and below 20000 the factors are x (p, e) and w (e, q) · m (e, q). So the
  program's result at (p, q) is ∑ e < 20000, x (p, e) · (w (e, q) · m (e, q)): the specification. Read off the frame
  run, with the argument arrays unchanged.
-/
import proofs.«112190_j71700184039905_2_alg».proof.Proof.KernelArray
import proofs.«112190_j71700184039905_2_alg».proof.Proof.HostSides

noncomputable section

open scoped BigOperators

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.PaddedDot Cert.KernelIdeal.Blocks

variable (m : (ℓ : Loc nD τ sig) → Buf (Elt Ideal) ℓ) (ρ : Dev nD → PrngReg)

/-- The kept corner of the padded product is the masked product of the arguments. -/
theorem corner_eq (c : Dev nD) :
    extractStridedSlice S4096x5000 ![0, 0] (KernelArray.product m c) slices_S4096x5120_S4096x5000_0_0
      = maskedProduct (m ((c : Thread nD τ).loc main_arg0)) (m ((c : Thread nD τ).loc main_arg1))
          (m ((c : Thread nD τ).loc main_arg2)) := by
  funext i
  have hi1 : (i 1).val < 5000 := (i 1).isLt
  refine (extractStridedSlice_apply _ _ _ i (ix2 (i 0) ⟨(i 1).val, by omega⟩) fun a => ?_).trans ?_
  · match a with
    | ⟨0, _⟩ => show (i 0).val = 0 + (i 0).val; omega
    | ⟨1, _⟩ => show (i 1).val = 0 + (i 1).val; omega
  · show ∑ e : Fin 20480, A m c (i 0).val e.val * B m c e.val (i 1).val = _
    refine (sum_drop_zero_tail (n := 20000) (N := 20480) (by norm_num) (fun e => A m c (i 0).val e * B m c e (i 1).val) fun e he => ?_).trans ?_
    · show A m c (i 0).val e * B m c e (i 1).val = 0
      rw [HostSides.A_tail m c _ e he, zero_mul]
    · unfold maskedProduct
      refine Finset.sum_congr rfl fun e _ => ?_
      rw [HostSides.A_inside m c (i 0) e, HostSides.B_inside m c e (i 1)]
      rfl

/-- Every weakly fair execution of the kernel program terminates with its result at the masked product of the argument
    arrays and the argument arrays unchanged. -/
theorem run : θ_run defs (onTc (τ := τ) (main (F := Ideal))) ⟨m, fun _ => 0, ρ⟩ fun r => ∀ c : Dev nD,
      r.2.mem ((c.tc : Thread nD τ).loc main_v6)
        = maskedProduct (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans
        ((HostSides.tail_eq m c _ (KernelArray.final m c)).trans (corner_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.RefSide.lean ====
/-
  The reference computes the masked product.

  The reference multiplies w and m entry by entry and contracts x's columns against the product's rows; on the
  extended reals the host's contraction is the plain sum over the contracted position, so its result at (p, q) is the
  sum over e < 20000 of x (p, e) · (w (e, q) · m (e, q)): the specification.
-/
import proofs.«112190_j71700184039905_2_alg».proof.Proof.Gen.ReferenceIdeal.Run
import proofs.«112190_j71700184039905_2_alg».proof.Proof.Gen.ReferenceIdeal.Read
import proofs.«112190_j71700184039905_2_alg».proof.Proof.PaddedDot

noncomputable section

open scoped BigOperators

namespace Cert.RefSide

open Idealize.ShloMosaic Idealize.ShloMosaic.ValueIdx Cert.ReferenceIdeal Cert.ReferenceIdeal.Read Cert.PaddedDot

/-- The reference's result term is the masked product of its arguments. -/
theorem ref_eq (x : FVec Ideal S4096x20000 .f32) (w m : FVec Ideal S20000x5000 .f32) :
    Host.dotGeneral dot_S4096x20000_S20000x5000_S4096x5000_1_0_0_1_n_n none x (mulf w m) = maskedProduct x w m := by
  rw [val_main_v1_eq]
  funext i
  rw [val_main_v1_apply]
  unfold maskedProduct
  refine Finset.sum_congr rfl fun e _ => ?_
  have el : lidx_main_v1 i e = ix2 (i 0) e :=
    funext fun a => Fin.ext (by match a with | ⟨0, _⟩ => rfl | ⟨1, _⟩ => rfl)
  have er : ridx_main_v1 i e = ix2 e (i 1) :=
    funext fun a => Fin.ext (by match a with | ⟨0, _⟩ => rfl | ⟨1, _⟩ => rfl)
  rw [el, er]
  rfl

end Cert.RefSide

end
-- ==== Proof.lean ====
/-
  The masked matrix product x · (w ∘ m), tiled: the kernel program against the plain product.

  The kernel program multiplies w and m entry by entry, pads the product and x with zeros up to multiples of 1024
  (x to [4096, 20480], w ∘ m to [20480, 5120]), and computes the [4096, 5120] product block by block: for each of the
  4 × 5 output blocks it sweeps the 20 blocks of the contracted axis, accumulating each pair of blocks' matrix product in a
  scratch block that is reset at the first block of the sweep and copied to the output at the last; finally it keeps
  rows 0..4095 and columns 0..4999. The reference multiplies w and m and contracts x against the product directly.

  On the extended reals, where a change of float format is the identity and sums have no order, both results are

      (p, q) ↦ ∑ e < 20000, x (p, e) · (w (e, q) · m (e, q)).

  For the kernel program: the accumulator after k + 1 blocks of a sweep is the inner product over the first 1024·(k + 1)
  positions (induction over the grid points), after 20 blocks the inner product over all 20480 positions, and the 480
  padded positions contribute 0 · y = 0 each. Only commutativity and associativity of the addition and 0 · y = 0 are
  used, so the precondition (finite inputs) is not needed. No operation of the kernel program was rewritten in idealizing
  it, so the idealized kernel program is the kernel program's own text read on the extended reals and that claim is
  trivial. The three frames are the generated ones (the reference's is its generated run with the result dropped).
-/
import proofs.«112190_j71700184039905_2_alg».proof.Defs
import proofs.«112190_j71700184039905_2_alg».proof.Proof.Gen.Kernel
import proofs.«112190_j71700184039905_2_alg».proof.Proof.Gen.Kernel.Skeleton
import proofs.«112190_j71700184039905_2_alg».proof.Proof.Gen.Kernel.Launch
import proofs.«112190_j71700184039905_2_alg».proof.Proof.Gen.Kernel.Points
import proofs.«112190_j71700184039905_2_alg».proof.Proof.Gen.Kernel.Frame
import proofs.«112190_j71700184039905_2_alg».proof.Proof.Gen.KernelIdeal
import proofs.«112190_j71700184039905_2_alg».proof.Proof.Gen.KernelIdeal.Skeleton
import proofs.«112190_j71700184039905_2_alg».proof.Proof.Gen.KernelIdeal.Launch
import proofs.«112190_j71700184039905_2_alg».proof.Proof.Gen.KernelIdeal.Points
import proofs.«112190_j71700184039905_2_alg».proof.Proof.Gen.KernelIdeal.Frame
import proofs.«112190_j71700184039905_2_alg».proof.Proof.Gen.ReferenceIdeal
import proofs.«112190_j71700184039905_2_alg».proof.Proof.Gen.ReferenceIdeal.Run
import proofs.«112190_j71700184039905_2_alg».proof.Proof.Gen.Pre_finite_inputs
import proofs.«112190_j71700184039905_2_alg».proof.Proof.KernelRun
import proofs.«112190_j71700184039905_2_alg».proof.Proof.RefSide
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2)
    (Cert.ReferenceIdeal.Value.run (F := Ideal) m ρ)

/-- Both programs end at the masked product of the arguments they agree on. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.RefSide.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
